-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x28x28 : Shape := ⟨3, ![65536, 28, 28]⟩
abbrev S1000x784 : Shape := ⟨2, ![1000, 784]⟩
abbrev S1000 : Shape := ⟨1, ![1000]⟩
abbrev S500x1000 : Shape := ⟨2, ![500, 1000]⟩
abbrev S500 : Shape := ⟨1, ![500]⟩
abbrev S10x500 : Shape := ⟨2, ![10, 500]⟩
abbrev S10 : Shape := ⟨1, ![10]⟩
abbrev S_ : Shape := ⟨0, ![]⟩

class Facts : Prop where
  bcast_S_S65536x28x28 : S_.BroadcastsInDim S65536x28x28 (![] : Fin 0 → Fin S65536x28x28.rank)
  reducesTo_S65536x28x28_S_d0_1_2 : S65536x28x28.ReducesTo [0, 1, 2] S_
  h_S_ : 0 < S_.numel
  bcast_S_S1000x784 : S_.BroadcastsInDim S1000x784 (![] : Fin 0 → Fin S1000x784.rank)
  reducesTo_S1000x784_S_d0_1 : S1000x784.ReducesTo [0, 1] S_
  bcast_S_S1000 : S_.BroadcastsInDim S1000 (![] : Fin 0 → Fin S1000.rank)
  reducesTo_S1000_S_d0 : S1000.ReducesTo [0] S_
  bcast_S_S500x1000 : S_.BroadcastsInDim S500x1000 (![] : Fin 0 → Fin S500x1000.rank)
  reducesTo_S500x1000_S_d0_1 : S500x1000.ReducesTo [0, 1] S_
  bcast_S_S500 : S_.BroadcastsInDim S500 (![] : Fin 0 → Fin S500.rank)
  reducesTo_S500_S_d0 : S500.ReducesTo [0] S_
  bcast_S_S10x500 : S_.BroadcastsInDim S10x500 (![] : Fin 0 → Fin S10x500.rank)
  reducesTo_S10x500_S_d0_1 : S10x500.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S500 .f32) (main_arg5 : FVec F S10x500 .f32) (main_arg6 : FVec F S10 .f32) (main_v13 : IVec S_ 1) (main_v16 : IVec S500x1000 1) : IVec S_ 1 :=
  let main_c_5 : IVec S_ 1 := constantI S_ 1 1#1
  let main_v17 : IVec S_ 1 := (fun x v => Host.reduce IntOp.andi x v reducesTo_S500x1000_S_d0_1 h_S_) main_v16 main_c_5
  let main_v18 : IVec S_ 1 := andi main_v13 main_v17
  let main_v19 : FVec F S500 .f32 := Host.absf main_arg4
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S10x500 .f32 := Host.absf main_arg5
  let main_cst_8 : FVec F S_ .f32 := constant S_ .f32 0x7F800000#32
  let main_v25 : FVec F S10x500 .f32 := broadcastInDim S10x500 ![] bcast_S_S10x500 main_cst_8
  let main_v26 : IVec S10x500 1 := cmpf .olt main_v24 main_v25
  let main_c_9 : IVec S_ 1 := constantI S_ 1 1#1
  let main_v27 : IVec S_ 1 := (fun x v => Host.reduce IntOp.andi x v reducesTo_S10x500_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S65536x28x28 .f32) (main_arg1 : FVec F S1000x784 .f32) (main_arg2 : FVec F S1000 .f32) (main_arg3 : FVec F S500x1000 .f32) (main_arg4 : FVec F S500 .f32) (main_arg5 : FVec F S10x500 .f32) (main_arg6 : FVec F S10 .f32) : IVec S_ 1 :=
  let main_v0 : FVec F S65536x28x28 .f32 := Host.absf main_arg0
  let main_cst : FVec F S_ .f32 := constant S_ .f32 0x7F800000#32
  let main_v1 : FVec F S65536x28x28 .f32 := broadcastInDim S65536x28x28 ![] bcast_S_S65536x28x28 main_cst
  let main_v2 : IVec S65536x28x28 1 := cmpf .olt main_v0 main_v1
  let main_c : IVec S_ 1 := constantI S_ 1 1#1
  let main_v3 : IVec S_ 1 := (fun x v => Host.reduce IntOp.andi x v reducesTo_S65536x28x28_S_d0_1_2 h_S_) main_v2 main_c
  let main_v4 : FVec F S1000x784 .f32 := Host.absf main_arg1
  let main_cst_0 : FVec F S_ .f32 := constant S_ .f32 0x7F800000#32
  let main_v5 : FVec F S1000x784 .f32 := broadcastInDim S1000x784 ![] bcast_S_S1000x784 main_cst_0
  let main_v6 : IVec S1000x784 1 := cmpf .olt main_v4 main_v5
  let main_c_1 : IVec S_ 1 := constantI S_ 1 1#1
  let main_v7 : IVec S_ 1 := (fun x v => Host.reduce IntOp.andi x v reducesTo_S1000x784_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S500x1000 .f32 := Host.absf main_arg3
  let main_cst_4 : FVec F S_ .f32 := constant S_ .f32 0x7F800000#32
  let main_v15 : FVec F S500x1000 .f32 := broadcastInDim S500x1000 ![] bcast_S_S500x1000 main_cst_4
  let main_v16 : IVec S500x1000 1 := cmpf .olt main_v14 main_v15
  fn_part1 (F := F) main_arg4 main_arg5 main_arg6 main_v13 main_v16
-- ==== Kernel.lean ====
abbrev S65536x28x28 : Shape := ⟨3, ![65536, 28, 28]⟩
abbrev S1000x784 : Shape := ⟨2, ![1000, 784]⟩
abbrev S1000 : Shape := ⟨1, ![1000]⟩
abbrev S500x1000 : Shape := ⟨2, ![500, 1000]⟩
abbrev S500 : Shape := ⟨1, ![500]⟩
abbrev S10x500 : Shape := ⟨2, ![10, 500]⟩
abbrev S10 : Shape := ⟨1, ![10]⟩
abbrev S65536x784 : Shape := ⟨2, ![65536, 784]⟩
abbrev S_ : Shape := ⟨0, ![]⟩
abbrev S784x1000 : Shape := ⟨2, ![784, 1000]⟩
abbrev S1000x500 : Shape := ⟨2, ![1000, 500]⟩
abbrev S500x10 : Shape := ⟨2, ![500, 10]⟩
abbrev S1x1000 : Shape := ⟨2, ![1, 1000]⟩
abbrev S1x500 : Shape := ⟨2, ![1, 500]⟩
abbrev S1x10 : Shape := ⟨2, ![1, 10]⟩
abbrev S65536x10 : Shape := ⟨2, ![65536, 10]⟩
abbrev S1024x784 : Shape := ⟨2, ![1024, 784]⟩
abbrev S1024x10 : Shape := ⟨2, ![1024, 10]⟩
abbrev S1024x1000 : Shape := ⟨2, ![1024, 1000]⟩
abbrev S1024x500 : Shape := ⟨2, ![1024, 500]⟩

abbrev nBuf : Space → Nat
  | .hbm => 42
  | .vmem => 10
  | .smem => 0
  | _ => 0

abbrev bufTy : (tb : Table) → Fin (tcTables nBuf tb) → BufTy
  | .hbm, ⟨0, _⟩ => ⟨S65536x28x28, .f32⟩
  | .hbm, ⟨1, _⟩ => ⟨S1000x784, .f32⟩
  | .hbm, ⟨2, _⟩ => ⟨S1000, .f32⟩
  | .hbm, ⟨3, _⟩ => ⟨S500x1000, .f32⟩
  | .hbm, ⟨4, _⟩ => ⟨S500, .f32⟩
  | .hbm, ⟨5, _⟩ => ⟨S10x500, .f32⟩
  | .hbm, ⟨6, _⟩ => ⟨S10, .f32⟩
  | .hbm, ⟨7, _⟩ => ⟨S65536x784, .f32⟩
  | .hbm, ⟨8, _⟩ => ⟨S_, .f32⟩
  | .hbm, ⟨9, _⟩ => ⟨S1000x784, .f32⟩
  | .hbm, ⟨10, _⟩ => ⟨S1000x784, .i1⟩
  | .hbm, ⟨11, _⟩ => ⟨S_, .f32⟩
  | .hbm, ⟨12, _⟩ => ⟨S_, .f32⟩
  | .hbm, ⟨13, _⟩ => ⟨S1000x784, .f32⟩
  | .hbm, ⟨14, _⟩ => ⟨S1000x784, .f32⟩
  | .hbm, ⟨15, _⟩ => ⟨S1000x784, .f32⟩
  | .hbm, ⟨16, _⟩ => ⟨S1000x784, .bf16⟩
  | .hbm, ⟨17, _⟩ => ⟨S784x1000, .bf16⟩
  | .hbm, ⟨18, _⟩ => ⟨S_, .f32⟩
  | .hbm, ⟨19, _⟩ => ⟨S500x1000, .f32⟩
  | .hbm, ⟨20, _⟩ => ⟨S500x1000, .i1⟩
  | .hbm, ⟨21, _⟩ => ⟨S_, .f32⟩
  | .hbm, ⟨22, _⟩ => ⟨S_, .f32⟩
  | .hbm, ⟨23, _⟩ => ⟨S500x1000, .f32⟩
  | .hbm, ⟨24, _⟩ => ⟨S500x1000, .f32⟩
  | .hbm, ⟨25, _⟩ => ⟨S500x1000, .f32⟩
  | .hbm, ⟨26, _⟩ => ⟨S500x1000, .bf16⟩
  | .hbm, ⟨27, _⟩ => ⟨S1000x500, .bf16⟩
  | .hbm, ⟨28, _⟩ => ⟨S_, .f32⟩
  | .hbm, ⟨29, _⟩ => ⟨S10x500, .f32⟩
  | .hbm, ⟨30, _⟩ => ⟨S10x500, .i1⟩
  | .hbm, ⟨31, _⟩ => ⟨S_, .f32⟩
  | .hbm, ⟨32, _⟩ => ⟨S_, .f32⟩
  | .hbm, ⟨33, _⟩ => ⟨S10x500, .f32⟩
  | .hbm, ⟨34, _⟩ => ⟨S10x500, .f32⟩
  | .hbm, ⟨35, _⟩ => ⟨S10x500, .f32⟩
  | .hbm, ⟨36, _⟩ => ⟨S10x500, .bf16⟩
  | .hbm, ⟨37, _⟩ => ⟨S500x10, .bf16⟩
  | .hbm, ⟨38, _⟩ => ⟨S1x1000, .f32⟩
  | .hbm, ⟨39, _⟩ => ⟨S1x500, .f32⟩
  | .hbm, ⟨40, _⟩ => ⟨S1x10, .f32⟩
  | .hbm, ⟨41, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S784x1000, .bf16⟩
  | .local _ .vmem, ⟨3, _⟩ => ⟨S1x1000, .f32⟩
  | .local _ .vmem, ⟨4, _⟩ => ⟨S1000x500, .bf16⟩
  | .local _ .vmem, ⟨5, _⟩ => ⟨S1x500, .f32⟩
  | .local _ .vmem, ⟨6, _⟩ => ⟨S500x10, .bf16⟩
  | .local _ .vmem, ⟨7, _⟩ => ⟨S1x10, .f32⟩
  | .local _ .vmem, ⟨8, _⟩ => ⟨S1024x10, .f32⟩
  | .local _ .vmem, ⟨9, _⟩ => ⟨S1024x10, .f32⟩
  | _, _ => ⟨S65536x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_cst_6 : Ref sig .tc := ⟨.hbm, 31, rfl⟩
abbrev main_cst_7 : Ref sig .tc := ⟨.hbm, 32, rfl⟩
abbrev main_call2_v0 : Ref sig .tc := ⟨.hbm, 33, rfl⟩
abbrev main_call2_v1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x500 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x500 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S500x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S65536x28x28_S65536x784 : S65536x28x28.ShapeCasts S65536x784
  bcast_S_S1000x784 : S_.BroadcastsInDim S1000x784 (![] : Fin 0 → Fin S1000x784.rank)
  bitsLt_bf16_f32 : FTy.bits .bf16 < FTy.bits .f32
  transposes_S1000x784_S784x1000_1_0 : S1000x784.Transposes [1, 0] S784x1000
  bcast_S_S500x1000 : S_.BroadcastsInDim S500x1000 (![] : Fin 0 → Fin S500x1000.rank)
  transposes_S500x1000_S1000x500_1_0 : S500x1000.Transposes [1, 0] S1000x500
  bcast_S_S10x500 : S_.BroadcastsInDim S10x500 (![] : Fin 0 → Fin S10x500.rank)
  transposes_S10x500_S500x10_1_0 : S10x500.Transposes [1, 0] S500x10
  shapeCasts_S1000_S1x1000 : S1000.ShapeCasts S1x1000
  shapeCasts_S500_S1x500 : S500.ShapeCasts S1x500
  shapeCasts_S10_S1x10 : S10.ShapeCasts S1x10
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S784x1000_S784x1000_0_0 : ∀ a, (![0, 0] : Fin 2 → Nat) a + S784x1000.size a ≤ S784x1000.size a
  h_S784x1000 : 0 < S784x1000.numel
  shapeCasts_S784x1000_S784x1000 : S784x1000.ShapeCasts S784x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S1024x1000 : S1x1000.Broadcasts S1024x1000
  inb_S1000x500_S1000x500_0_0 : ∀ a, (![0, 0] : Fin 2 → Nat) a + S1000x500.size a ≤ S1000x500.size a
  h_S1000x500 : 0 < S1000x500.numel
  shapeCasts_S1000x500_S1000x500 : S1000x500.ShapeCasts S1000x500
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S1024x500 : S1x500.Broadcasts S1024x500
  inb_S500x10_S500x10_0_0 : ∀ a, (![0, 0] : Fin 2 → Nat) a + S500x10.size a ≤ S500x10.size a
  h_S500x10 : 0 < S500x10.numel
  shapeCasts_S500x10_S500x10 : S500x10.ShapeCasts S500x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x784_S784x1000_S1024x1000_1_0_0_1_n_n_wf : DotDims.WF S1024x784 S784x1000 S1024x1000 [1] [0] [0] [1] [] []
  dot_S1024x1000_S1000x500_S1024x500_1_0_0_1_n_n_wf : DotDims.WF S1024x1000 S1000x500 S1024x500 [1] [0] [0] [1] [] []
  dot_S1024x500_S500x10_S1024x10_1_0_0_1_n_n_wf : DotDims.WF S1024x500 S500x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1000.size a ≤ S784x1000.size a
  hwx0_1 : ∀ i : grid0.Coords, EltTy.bits .bf16 = 32 ∨ (Rect.block (s := S784x1000) S784x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x500.size a ≤ S1000x500.size a
  hwx0_3 : ∀ i : grid0.Coords, EltTy.bits .bf16 = 32 ∨ (Rect.block (s := S1000x500) S1000x500.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x500.size a ≤ S1x500.size a
  hwx0_4 : ∀ i : grid0.Coords, EltTy.bits .f32 = 32 ∨ (Rect.block (s := S1x500) S1x500.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S500x10.size a ≤ S500x10.size a
  hwx0_5 : ∀ i : grid0.Coords, EltTy.bits .bf16 = 32 ∨ (Rect.block (s := S500x10) S500x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x10.size a ≤ S65536x10.size a
  hwx0_7 : ∀ i : grid0.Coords, EltTy.bits .f32 = 32 ∨ (Rect.block (s := S65536x10) S1024x10.size (cc0_transform_7 i) (hinb0_7 i)).WholeWords (EltTy.packing .f32)

variable [Facts₀]

def dot_S1024x784_S784x1000_S1024x1000_1_0_0_1_n_n : DotDims S1024x784 S784x1000 S1024x1000 where
  lhsContracting := [1]
  rhsContracting := [0]
  lhsNonContracting := [0]
  rhsNonContracting := [1]
  lhsBatch := []
  rhsBatch := []
  wf := dot_S1024x784_S784x1000_S1024x1000_1_0_0_1_n_n_wf
def dot_S1024x1000_S1000x500_S1024x500_1_0_0_1_n_n : DotDims S1024x1000 S1000x500 S1024x500 where
  lhsContracting := [1]
  rhsContracting := [0]
  lhsNonContracting := [0]
  rhsNonContracting := [1]
  lhsBatch := []
  rhsBatch := []
  wf := dot_S1024x1000_S1000x500_S1024x500_1_0_0_1_n_n_wf
def dot_S1024x500_S500x10_S1024x10_1_0_0_1_n_n : DotDims S1024x500 S500x10 S1024x10 where
  lhsContracting := [1]
  rhsContracting := [0]
  lhsNonContracting := [0]
  rhsNonContracting := [1]
  lhsBatch := []
  rhsBatch := []
  wf := dot_S1024x500_S500x10_S1024x10_1_0_0_1_n_n_wf

abbrev win0_0 : Pipeline.Window sig grid0 :=
  Pipeline.Window.ofSpec (Memref.whole main_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S784x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1000x500.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x500.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S500x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1024x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x28x28 : Shape := ⟨3, ![65536, 28, 28]⟩
abbrev S1000x784 : Shape := ⟨2, ![1000, 784]⟩
abbrev S1000 : Shape := ⟨1, ![1000]⟩
abbrev S500x1000 : Shape := ⟨2, ![500, 1000]⟩
abbrev S500 : Shape := ⟨1, ![500]⟩
abbrev S10x500 : Shape := ⟨2, ![10, 500]⟩
abbrev S10 : Shape := ⟨1, ![10]⟩
abbrev S65536x784 : Shape := ⟨2, ![65536, 784]⟩
abbrev S_ : Shape := ⟨0, ![]⟩
abbrev S784x1000 : Shape := ⟨2, ![784, 1000]⟩
abbrev S65536x1000 : Shape := ⟨2, ![65536, 1000]⟩
abbrev S1x1000 : Shape := ⟨2, ![1, 1000]⟩
abbrev S1000x500 : Shape := ⟨2, ![1000, 500]⟩
abbrev S65536x500 : Shape := ⟨2, ![65536, 500]⟩
abbrev S1x500 : Shape := ⟨2, ![1, 500]⟩
abbrev S500x10 : Shape := ⟨2, ![500, 10]⟩
abbrev S65536x10 : Shape := ⟨2, ![65536, 10]⟩
abbrev S1x10 : Shape := ⟨2, ![1, 10]⟩

abbrev nBuf : Space → Nat
  | .hbm => 56
  | .vmem => 0
  | .smem => 0
  | _ => 0

abbrev bufTy : (tb : Table) → Fin (tcTables nBuf tb) → BufTy
  | .hbm, ⟨0, _⟩ => ⟨S65536x28x28, .f32⟩
  | .hbm, ⟨1, _⟩ => ⟨S1000x784, .f32⟩
  | .hbm, ⟨2, _⟩ => ⟨S1000, .f32⟩
  | .hbm, ⟨3, _⟩ => ⟨S500x1000, .f32⟩
  | .hbm, ⟨4, _⟩ => ⟨S500, .f32⟩
  | .hbm, ⟨5, _⟩ => ⟨S10x500, .f32⟩
  | .hbm, ⟨6, _⟩ => ⟨S10, .f32⟩
  | .hbm, ⟨7, _⟩ => ⟨S65536x784, .f32⟩
  | .hbm, ⟨8, _⟩ => ⟨S_, .f32⟩
  | .hbm, ⟨9, _⟩ => ⟨S1000x784, .f32⟩
  | .hbm, ⟨10, _⟩ => ⟨S1000x784, .i1⟩
  | .hbm, ⟨11, _⟩ => ⟨S_, .f32⟩
  | .hbm, ⟨12, _⟩ => ⟨S_, .f32⟩
  | .hbm, ⟨13, _⟩ => ⟨S1000x784, .f32⟩
  | .hbm, ⟨14, _⟩ => ⟨S1000x784, .f32⟩
  | .hbm, ⟨15, _⟩ => ⟨S1000x784, .f32⟩
  | .hbm, ⟨16, _⟩ => ⟨S1000x784, .f32⟩
  | .hbm, ⟨17, _⟩ => ⟨S784x1000, .f32⟩
  | .hbm, ⟨18, _⟩ => ⟨S65536x1000, .f32⟩
  | .hbm, ⟨19, _⟩ => ⟨S1x1000, .f32⟩
  | .hbm, ⟨20, _⟩ => ⟨S65536x1000, .f32⟩
  | .hbm, ⟨21, _⟩ => ⟨S65536x1000, .f32⟩
  | .hbm, ⟨22, _⟩ => ⟨S_, .f32⟩
  | .hbm, ⟨23, _⟩ => ⟨S65536x1000, .f32⟩
  | .hbm, ⟨24, _⟩ => ⟨S65536x1000, .f32⟩
  | .hbm, ⟨25, _⟩ => ⟨S_, .f32⟩
  | .hbm, ⟨26, _⟩ => ⟨S500x1000, .f32⟩
  | .hbm, ⟨27, _⟩ => ⟨S500x1000, .i1⟩
  | .hbm, ⟨28, _⟩ => ⟨S_, .f32⟩
  | .hbm, ⟨29, _⟩ => ⟨S_, .f32⟩
  | .hbm, ⟨30, _⟩ => ⟨S500x1000, .f32⟩
  | .hbm, ⟨31, _⟩ => ⟨S500x1000, .f32⟩
  | .hbm, ⟨32, _⟩ => ⟨S500x1000, .f32⟩
  | .hbm, ⟨33, _⟩ => ⟨S500x1000, .f32⟩
  | .hbm, ⟨34, _⟩ => ⟨S1000x500, .f32⟩
  | .hbm, ⟨35, _⟩ => ⟨S65536x500, .f32⟩
  | .hbm, ⟨36, _⟩ => ⟨S1x500, .f32⟩
  | .hbm, ⟨37, _⟩ => ⟨S65536x500, .f32⟩
  | .hbm, ⟨38, _⟩ => ⟨S65536x500, .f32⟩
  | .hbm, ⟨39, _⟩ => ⟨S_, .f32⟩
  | .hbm, ⟨40, _⟩ => ⟨S65536x500, .f32⟩
  | .hbm, ⟨41, _⟩ => ⟨S65536x500, .f32⟩
  | .hbm, ⟨42, _⟩ => ⟨S_, .f32⟩
  | .hbm, ⟨43, _⟩ => ⟨S10x500, .f32⟩
  | .hbm, ⟨44, _⟩ => ⟨S10x500, .i1⟩
  | .hbm, ⟨45, _⟩ => ⟨S_, .f32⟩
  | .hbm, ⟨46, _⟩ => ⟨S_, .f32⟩
  | .hbm, ⟨47, _⟩ => ⟨S10x500, .f32⟩
  | .hbm, ⟨48, _⟩ => ⟨S10x500, .f32⟩
  | .hbm, ⟨49, _⟩ => ⟨S10x500, .f32⟩
  | .hbm, ⟨50, _⟩ => ⟨S10x500, .f32⟩
  | .hbm, ⟨51, _⟩ => ⟨S500x10, .f32⟩
  | .hbm, ⟨52, _⟩ => ⟨S65536x10, .f32⟩
  | .hbm, ⟨53, _⟩ => ⟨S1x10, .f32⟩
  | .hbm, ⟨54, _⟩ => ⟨S65536x10, .f32⟩
  | .hbm, ⟨55, _⟩ => ⟨S65536x10, .f32⟩
  | _, _ => ⟨S65536x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_cst_7 : Ref sig .tc := ⟨.hbm, 42, rfl⟩
abbrev main_v23 : Ref sig .tc := ⟨.hbm, 43, rfl⟩
abbrev main_v24 : Ref sig .tc := ⟨.hbm, 44, rfl⟩
abbrev main_cst_8 : Ref sig .tc := ⟨.hbm, 45, rfl⟩
abbrev main_cst_9 : Ref sig .tc := ⟨.hbm, 46, rfl⟩
abbrev main_call2_v0 : Ref sig .tc := ⟨.hbm, 47, rfl⟩
abbrev main_call2_v1 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]

class Facts₀ : Prop where
  shapeCasts_S65536x28x28_S65536x784 : S65536x28x28.ShapeCasts S65536x784
  bcast_S_S1000x784 : S_.BroadcastsInDim S1000x784 (![] : Fin 0 → Fin S1000x784.rank)
  transposes_S1000x784_S784x1000_1_0 : S1000x784.Transposes [1, 0] S784x1000
  bcast_S1000_S1x1000_1 : S1000.BroadcastsInDim S1x1000 (![1] : Fin 1 → Fin S1x1000.rank)
  bcast_S1x1000_S65536x1000_0_1 : S1x1000.BroadcastsInDim S65536x1000 (![0, 1] : Fin 2 → Fin S65536x1000.rank)
  bcast_S_S65536x1000 : S_.BroadcastsInDim S65536x1000 (![] : Fin 0 → Fin S65536x1000.rank)
  bcast_S_S500x1000 : S_.BroadcastsInDim S500x1000 (![] : Fin 0 → Fin S500x1000.rank)
  transposes_S500x1000_S1000x500_1_0 : S500x1000.Transposes [1, 0] S1000x500
  bcast_S500_S1x500_1 : S500.BroadcastsInDim S1x500 (![1] : Fin 1 → Fin S1x500.rank)
  bcast_S1x500_S65536x500_0_1 : S1x500.BroadcastsInDim S65536x500 (![0, 1] : Fin 2 → Fin S65536x500.rank)
  bcast_S_S65536x500 : S_.BroadcastsInDim S65536x500 (![] : Fin 0 → Fin S65536x500.rank)
  bcast_S_S10x500 : S_.BroadcastsInDim S10x500 (![] : Fin 0 → Fin S10x500.rank)
  transposes_S10x500_S500x10_1_0 : S10x500.Transposes [1, 0] S500x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S784x1000_S65536x1000_1_0_0_1_n_n_wf : DotDims.WF S65536x784 S784x1000 S65536x1000 [1] [0] [0] [1] [] []
  dot_S65536x1000_S1000x500_S65536x500_1_0_0_1_n_n_wf : DotDims.WF S65536x1000 S1000x500 S65536x500 [1] [0] [0] [1] [] []
  dot_S65536x500_S500x10_S65536x10_1_0_0_1_n_n_wf : DotDims.WF S65536x500 S500x10 S65536x10 [1] [0] [0] [1] [] []

variable [Facts₀]

def dot_S65536x784_S784x1000_S65536x1000_1_0_0_1_n_n : DotDims S65536x784 S784x1000 S65536x1000 where
  lhsContracting := [1]
  rhsContracting := [0]
  lhsNonContracting := [0]
  rhsNonContracting := [1]
  lhsBatch := []
  rhsBatch := []
  wf := dot_S65536x784_S784x1000_S65536x1000_1_0_0_1_n_n_wf
def dot_S65536x1000_S1000x500_S65536x500_1_0_0_1_n_n : DotDims S65536x1000 S1000x500 S65536x500 where
  lhsContracting := [1]
  rhsContracting := [0]
  lhsNonContracting := [0]
  rhsNonContracting := [1]
  lhsBatch := []
  rhsBatch := []
  wf := dot_S65536x1000_S1000x500_S65536x500_1_0_0_1_n_n_wf
def dot_S65536x500_S500x10_S65536x10_1_0_0_1_n_n : DotDims S65536x500 S500x10 S65536x10 where
  lhsContracting := [1]
  rhsContracting := [0]
  lhsNonContracting := [0]
  rhsNonContracting := [1]
  lhsBatch := []
  rhsBatch := []
  wf := dot_S65536x500_S500x10_S65536x10_1_0_0_1_n_n_wf

class Facts : Prop extends Facts₀ where

variable [Facts]
-- ==== Proof.Spec.lean ====
/-
  The function both programs compute, on the extended reals.

  A sample is a row of 784 pixels.  A layer replaces every weight by its sign (+1 where the weight is
  at least zero, −1 elsewhere), multiplies the sample by the transposed sign matrix and adds the bias:
  output `n` is `∑ k, h k · sign (W n k) + b n`.  The network is three such layers, 784 → 1000 → 500 → 10,
  with `max · 0` after the first two.  Each of the 65536 samples is treated alone: row `r` of the result
  depends on row `r` of the image array only, which is why the batch may be cut into tiles of rows.
-/
import Idealize.ShloMosaic.PureOps.Ideal
import Idealize.ShloMosaic.Lib.ValueIdx

noncomputable section

open scoped BigOperators

namespace Cert.SignMlp

open Idealize.ShloMosaic Idealize.ShloMosaic.ValueIdx

/-- The sign that stands for a weight: `+1` where `0 ≤ w`, `−1` elsewhere (so zero counts as positive). -/
def sgn (w : EReal) : EReal :=
  Scalar.select (Ideal.cmp .oge w (Ideal.ofBits .f32 0x00000000#32))
    (Ideal.ofBits .f32 0x3F800000#32) (Ideal.ofBits .f32 0xBF800000#32)

/-- Rectification: the larger of `v` and zero. -/
def relu (v : EReal) : EReal := max v (Ideal.ofBits .f32 0x00000000#32)

/-- One affine layer on one sample `h`: output `n` is `∑ k, h k · S k n + b n`. -/
def layer {K N : Nat} (S : Fin K → Fin N → EReal) (b : Fin N → EReal) (h : Fin K → EReal) (n : Fin N) : EReal :=
  (∑ k : Fin K, h k * S k n) + b n

/-- The three layers on one sample, rectified after the first and the second. -/
def mlp (S1 : Fin 784 → Fin 1000 → EReal) (b1 : Fin 1000 → EReal) (S2 : Fin 1000 → Fin 500 → EReal) (b2 : Fin 500 → EReal)
    (S3 : Fin 500 → Fin 10 → EReal) (b3 : Fin 10 → EReal) (x : Fin 784 → EReal) : Fin 10 → EReal :=
  layer S3 b3 fun k3 => relu (layer S2 b2 (fun k2 => relu (layer S1 b1 x k2)) k3)

/-- Pixel `k` of sample `r` in the array of 28 × 28 images: image row `k / 28`, image column `k % 28`. -/
def pixel (r : Fin 65536) (k : Fin 784) : (⟨3, ![65536, 28, 28]⟩ : Shape).Idx :=
  ix3 r (⟨k.val / 28, by have := k.isLt; omega⟩ : Fin 28) (⟨k.val % 28, by have := k.isLt; omega⟩ : Fin 28)

/-- A weight matrix `W : [N, K]` as the layer uses it: transposed, every entry its sign. -/
def signsT {N K : Nat} (W : (⟨2, ![N, K]⟩ : Shape).Idx → EReal) : Fin K → Fin N → EReal :=
  fun k n => sgn (W (ix2 n k))

/-- A bias vector by its coordinate. -/
def bias {N : Nat} (b : (⟨1, ![N]⟩ : Shape).Idx → EReal) : Fin N → EReal := fun n => b (ix1 n)

/-- The network on sample `r`, from the seven argument arrays. -/
def sample (X : (⟨3, ![65536, 28, 28]⟩ : Shape).Idx → EReal)
    (W1 : (⟨2, ![1000, 784]⟩ : Shape).Idx → EReal) (b1 : (⟨1, ![1000]⟩ : Shape).Idx → EReal)
    (W2 : (⟨2, ![500, 1000]⟩ : Shape).Idx → EReal) (b2 : (⟨1, ![500]⟩ : Shape).Idx → EReal)
    (W3 : (⟨2, ![10, 500]⟩ : Shape).Idx → EReal) (b3 : (⟨1, ![10]⟩ : Shape).Idx → EReal)
    (r : Fin 65536) : Fin 10 → EReal :=
  mlp (signsT W1) (bias b1) (signsT W2) (bias b2) (signsT W3) (bias b3) fun k => X (pixel r k)

/-- THE RESULT ARRAY: entry `(r, j)` is output `j` of the network on sample `r`. -/
def G (X : (⟨3, ![65536, 28, 28]⟩ : Shape).Idx → EReal)
    (W1 : (⟨2, ![1000, 784]⟩ : Shape).Idx → EReal) (b1 : (⟨1, ![1000]⟩ : Shape).Idx → EReal)
    (W2 : (⟨2, ![500, 1000]⟩ : Shape).Idx → EReal) (b2 : (⟨1, ![500]⟩ : Shape).Idx → EReal)
    (W3 : (⟨2, ![10, 500]⟩ : Shape).Idx → EReal) (b3 : (⟨1, ![10]⟩ : Shape).Idx → EReal) :
    (⟨2, ![65536, 10]⟩ : Shape).Idx → EReal :=
  fun i => sample X W1 b1 W2 b2 W3 b3 ⟨(i 0).val, idx2_lt0 i⟩ ⟨(i 1).val, idx2_lt1 i⟩

/-- At an index given by its coordinates. -/
theorem G_ix2 (X : (⟨3, ![65536, 28, 28]⟩ : Shape).Idx → EReal)
    (W1 : (⟨2, ![1000, 784]⟩ : Shape).Idx → EReal) (b1 : (⟨1, ![1000]⟩ : Shape).Idx → EReal)
    (W2 : (⟨2, ![500, 1000]⟩ : Shape).Idx → EReal) (b2 : (⟨1, ![500]⟩ : Shape).Idx → EReal)
    (W3 : (⟨2, ![10, 500]⟩ : Shape).Idx → EReal) (b3 : (⟨1, ![10]⟩ : Shape).Idx → EReal)
    (r : Fin 65536) (j : Fin 10) :
    G X W1 b1 W2 b2 W3 b3 (ix2 r j) = sample X W1 b1 W2 b2 W3 b3 r j := rfl

end Cert.SignMlp

end
-- ==== Proof.RefValue.lean ====
/-
  The reference computes `Cert.SignMlp.G`.

  Its program is a straight line: the images flattened to rows of 784 pixels; per layer the weights compared
  with zero, replaced by ±1 and transposed, a matrix product with the activations, the bias broadcast over
  the rows and added, and (after the first two layers) the maximum with zero.  Read at an entry `(r, n)`, a
  product is the sum over the contracted coordinate `k` of the activation `(r, k)` times the transposed sign
  `(k, n)`, which is the sign of weight `(n, k)`; the flattened image at `(r, k)` is pixel `(k / 28, k % 28)`
  of image `r`.  So the three stages are the three layers of `Cert.SignMlp.mlp` on sample `r`.
-/
import proofs.«119544_j50087908606462_1_alg».proof.Proof.Gen.ReferenceIdeal.Read
import proofs.«119544_j50087908606462_1_alg».proof.Proof.Spec

noncomputable section

open scoped BigOperators

namespace Cert.SignMlp.Ref

open Cert.ReferenceIdeal Cert.ReferenceIdeal.Read Idealize.ShloMosaic Idealize.ShloMosaic.ValueIdx Cert.SignMlp

variable (x0 : (⟨S65536x28x28, .f32⟩ : BufTy).Contents (Elt Ideal)) (x1 : (⟨S1000x784, .f32⟩ : BufTy).Contents (Elt Ideal))
  (x2 : (⟨S1000, .f32⟩ : BufTy).Contents (Elt Ideal)) (x3 : (⟨S500x1000, .f32⟩ : BufTy).Contents (Elt Ideal))
  (x4 : (⟨S500, .f32⟩ : BufTy).Contents (Elt Ideal)) (x5 : (⟨S10x500, .f32⟩ : BufTy).Contents (Elt Ideal))
  (x6 : (⟨S10, .f32⟩ : BufTy).Contents (Elt Ideal))

/-! ## The transposed sign matrices -/

/-- Entry `(k, n)` of the first layer's transposed sign matrix is the sign of weight `(n, k)`. -/
theorem signs1 (k : Fin 784) (n : Fin 1000) : val_main_v5 (F := Ideal) x1 (ix2 k n) = signsT x1 k n := by
  have e : idx_main_v5 (ix2 k n) = ix2 n k := funext fun a => by
    match a with
    | ⟨0, _⟩ => rfl
    | ⟨1, _⟩ => rfl
  rw [val_main_v5_apply, val_main_v4_apply, val_main_v3_apply, val_main_v2_apply, val_main_v1_apply, val_main_cst_apply,
    val_main_call0_v0_apply, val_main_cst_0_apply, val_main_call0_v1_apply, val_main_cst_1_apply, e]
  rfl

/-- Entry `(k, n)` of the second layer's transposed sign matrix is the sign of weight `(n, k)`. -/
theorem signs2 (k : Fin 1000) (n : Fin 500) : val_main_v16 (F := Ideal) x3 (ix2 k n) = signsT x3 k n := by
  have e : idx_main_v16 (ix2 k n) = ix2 n k := funext fun a => by
    match a with
    | ⟨0, _⟩ => rfl
    | ⟨1, _⟩ => rfl
  rw [val_main_v16_apply, val_main_v15_apply, val_main_v14_apply, val_main_v13_apply, val_main_v12_apply, val_main_cst_3_apply,
    val_main_call1_v0_apply, val_main_cst_4_apply, val_main_call1_v1_apply, val_main_cst_5_apply, e]
  rfl

/-- Entry `(k, n)` of the third layer's transposed sign matrix is the sign of weight `(n, k)`. -/
theorem signs3 (k : Fin 500) (n : Fin 10) : val_main_v27 (F := Ideal) x5 (ix2 k n) = signsT x5 k n := by
  have e : idx_main_v27 (ix2 k n) = ix2 n k := funext fun a => by
    match a with
    | ⟨0, _⟩ => rfl
    | ⟨1, _⟩ => rfl
  rw [val_main_v27_apply, val_main_v26_apply, val_main_v25_apply, val_main_v24_apply, val_main_v23_apply, val_main_cst_7_apply,
    val_main_call2_v0_apply, val_main_cst_8_apply, val_main_call2_v1_apply, val_main_cst_9_apply, e]
  rfl

/-! ## The flattened images -/

/-- Entry `(r, k)` of the flattened image array is pixel `k` of image `r`. -/
theorem flat (r : Fin 65536) (k : Fin 784) : val_main_v0 (F := Ideal) x0 (ix2 r k) = x0 (pixel r k) := by
  have hr := r.isLt
  have hk := k.isLt
  have e : idx_main_v0 (ix2 r k) = pixel r k := funext fun a => Fin.ext (by
    match a with
    | ⟨0, _⟩ => show (r.val * 784 + k.val) / 784 = r.val; omega
    | ⟨1, _⟩ => show (r.val * 784 + k.val) / 28 % 28 = k.val / 28; omega
    | ⟨2, _⟩ => show (r.val * 784 + k.val) % 28 = k.val % 28; omega)
  rw [val_main_v0_apply, e]

/-! ## The three stages -/

/-- After the first stage, entry `(r, n)` is the first layer's rectified output `n` on sample `r`. -/
theorem stage1 (r : Fin 65536) (n : Fin 1000) :
    val_main_v11 (F := Ideal) x0 x1 x2 (ix2 r n)
      = relu (layer (signsT x1) (bias x2) (fun k => x0 (pixel r k)) n) := by
  have el : ∀ k : Fin 784, lidx_main_v6 (ix2 r n) k = ix2 r k := fun k => funext fun a => by
    match a with
    | ⟨0, _⟩ => rfl
    | ⟨1, _⟩ => rfl
  have er : ∀ k : Fin 784, ridx_main_v6 (ix2 r n) k = ix2 k n := fun k => funext fun a => by
    match a with
    | ⟨0, _⟩ => rfl
    | ⟨1, _⟩ => rfl
  have eb : idx_main_v7 (idx_main_v8 (ix2 r n)) = ix1 n := funext fun a => by
    match a with
    | ⟨0, _⟩ => rfl
  rw [val_main_v11_apply, val_main_v9_apply, val_main_v6_apply, val_main_v8_apply, val_main_v7_apply, val_main_v10_apply,
    val_main_cst_2_apply, eb]
  simp only [el, er, flat, signs1]
  rfl

/-- After the second stage, entry `(r, n)` is the second layer's rectified output `n` on sample `r`. -/
theorem stage2 (r : Fin 65536) (n : Fin 500) :
    val_main_v22 (F := Ideal) x0 x1 x2 x3 x4 (ix2 r n)
      = relu (layer (signsT x3) (bias x4) (fun k2 => relu (layer (signsT x1) (bias x2) (fun k => x0 (pixel r k)) k2)) n) := by
  have el : ∀ k : Fin 1000, lidx_main_v17 (ix2 r n) k = ix2 r k := fun k => funext fun a => by
    match a with
    | ⟨0, _⟩ => rfl
    | ⟨1, _⟩ => rfl
  have er : ∀ k : Fin 1000, ridx_main_v17 (ix2 r n) k = ix2 k n := fun k => funext fun a => by
    match a with
    | ⟨0, _⟩ => rfl
    | ⟨1, _⟩ => rfl
  have eb : idx_main_v18 (idx_main_v19 (ix2 r n)) = ix1 n := funext fun a => by
    match a with
    | ⟨0, _⟩ => rfl
  rw [val_main_v22_apply, val_main_v20_apply, val_main_v17_apply, val_main_v19_apply, val_main_v18_apply, val_main_v21_apply,
    val_main_cst_6_apply, eb]
  simp only [el, er, stage1, signs2]
  rfl

/-- The result, entry `(r, n)`: the network's output `n` on sample `r`. -/
theorem stage3 (r : Fin 65536) (n : Fin 10) :
    val_main_v31 (F := Ideal) x0 x1 x2 x3 x4 x5 x6 (ix2 r n) = sample x0 x1 x2 x3 x4 x5 x6 r n := by
  have el : ∀ k : Fin 500, lidx_main_v28 (ix2 r n) k = ix2 r k := fun k => funext fun a => by
    match a with
    | ⟨0, _⟩ => rfl
    | ⟨1, _⟩ => rfl
  have er : ∀ k : Fin 500, ridx_main_v28 (ix2 r n) k = ix2 k n := fun k => funext fun a => by
    match a with
    | ⟨0, _⟩ => rfl
    | ⟨1, _⟩ => rfl
  have eb : idx_main_v29 (idx_main_v30 (ix2 r n)) = ix1 n := funext fun a => by
    match a with
    | ⟨0, _⟩ => rfl
  rw [val_main_v31_apply, val_main_v28_apply, val_main_v30_apply, val_main_v29_apply, eb]
  simp only [el, er, stage2, signs3]
  rfl

/-- THE REFERENCE'S RESULT IS `G` of its arguments. -/
theorem result_eq : val_main_v31 (F := Ideal) x0 x1 x2 x3 x4 x5 x6 = G x0 x1 x2 x3 x4 x5 x6 := by
  funext i
  obtain ⟨r, n, rfl⟩ : ∃ (r : Fin 65536) (n : Fin 10), i = ix2 r n := ⟨i 0, i 1, eq_ix2 i⟩
  rw [stage3, G_ix2]

end Cert.SignMlp.Ref

end
-- ==== Proof.Entry.lean ====
/-
  What the tiled region finds in the seven arrays it reads.

  Before the region starts the program flattens each 28 × 28 image to a row of 784 pixels; replaces each weight
  matrix by its signs (the weight compared with zero selects +1 or −1), narrows the format and transposes; and
  gives each bias vector a leading axis of length one.  Read at an entry: the flattened images at `(r, k)` are
  pixel `(k / 28, k % 28)` of image `r`; a transposed sign matrix at `(k, n)` is the sign of weight `(n, k)`; a bias
  row at `(0, n)` is bias `n`.
-/
import proofs.«119544_j50087908606462_1_alg».proof.Proof.Gen.KernelIdeal.Frame
import proofs.«119544_j50087908606462_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.SignMlp.Entry

open Cert.KernelIdeal Cert.KernelIdeal.Gen Idealize.ShloMosaic Idealize.ShloMosaic.TcCoe Idealize.SL.Sem
open Idealize.ShloMosaic.StableHlo Idealize.ShloMosaic.ValueIdx Cert.SignMlp

variable (m : (ℓ : Loc nD τ sig) → Buf (Elt Ideal) ℓ)

/-! ## The images -/

/-- The array the first window tiles is the image array flattened to `[65536, 784]`. -/
theorem images (c : Dev nD) : (V m c main_v0 : S65536x784.Idx → EReal)
    = shapeCast S65536x784 (m ((c : Thread nD τ).loc main_arg0)) shapeCasts_S65536x28x28_S65536x784 := by
  dsimp only [Gen.V]
  simp only [hostOps0, hostOps0_1, hostOps0_2, hostOps0_3, hostOps0_4, hostOps0_5, hostOps0_6, List.flatten_cons, List.flatten_nil, List.append_nil,
    List.cons_append, List.nil_append]
  after_results
  rfl

/-- Its entry `(r, k)` is pixel `k` of image `r`: both sit at position `784 r + k` of the row-major order. -/
theorem images_apply (c : Dev nD) (r : Fin 65536) (k : Fin 784) :
    (V m c main_v0 : S65536x784.Idx → EReal) (ix2 r k) = (m ((c : Thread nD τ).loc main_arg0) : S65536x28x28.Idx → EReal) (pixel r k) := by
  have hk := k.isLt
  rw [images]
  exact shapeCast_apply _ shapeCasts_S65536x28x28_S65536x784 (ix2 r k) (pixel r k) (by
    rewrite [Shape.rowMajor_val_three, Shape.rowMajor_val_two]
    show (r.val * 28 + k.val / 28) * 28 + k.val % 28 = r.val * 784 + k.val
    omega)

/-! ## Layer 1 -/

/-- The first transposed sign matrix: the weights compared with zero, ±1 selected, narrowed, transposed. -/
theorem signs1 (c : Dev nD) : (V m c main_v5 : S784x1000.Idx → EReal)
    = transpose S784x1000 [1, 0] (truncf .bf16 (select (cmpf .oge (m ((c : Thread nD τ).loc main_arg1))
        (broadcastInDim S1000x784 ![] bcast_S_S1000x784 (constant (F := Ideal) S_ .f32 0x00000000#32)))
        (broadcastInDim S1000x784 ![] bcast_S_S1000x784 (constant (F := Ideal) S_ .f32 0x3F800000#32))
        (broadcastInDim S1000x784 ![] bcast_S_S1000x784 (constant (F := Ideal) S_ .f32 0xBF800000#32))) bitsLt_bf16_f32)
        transposes_S1000x784_S784x1000_1_0 := by
  dsimp only [Gen.V]
  simp only [hostOps0, hostOps0_1, hostOps0_2, hostOps0_3, hostOps0_4, hostOps0_5, hostOps0_6, List.flatten_cons, List.flatten_nil, List.append_nil,
    List.cons_append, List.nil_append]
  after_results
  rfl

/-- Its entry `(k, n)` is the sign of weight `(n, k)`. -/
theorem signs1_apply (c : Dev nD) (k : Fin 784) (n : Fin 1000) :
    (V m c main_v5 : S784x1000.Idx → EReal) (ix2 k n) = signsT (m ((c : Thread nD τ).loc main_arg1) : S1000x784.Idx → EReal) k n := by
  rw [signs1, transpose_ix2_apply]
  rfl

/-- The first bias as one row. -/
theorem bias1 (c : Dev nD) : (V m c main_v16 : S1x1000.Idx → EReal)
    = shapeCast S1x1000 (m ((c : Thread nD τ).loc main_arg2)) shapeCasts_S1000_S1x1000 := by
  dsimp only [Gen.V]
  simp only [hostOps0, hostOps0_1, hostOps0_2, hostOps0_3, hostOps0_4, hostOps0_5, hostOps0_6, List.flatten_cons, List.flatten_nil, List.append_nil,
    List.cons_append, List.nil_append]
  after_results
  rfl

/-- Its entry `(0, n)` is bias `n`. -/
theorem bias1_apply (c : Dev nD) (n : Fin 1000) :
    (V m c main_v16 : S1x1000.Idx → EReal) (ix2 (0 : Fin 1) n) = bias (m ((c : Thread nD τ).loc main_arg2) : S1000.Idx → EReal) n := by
  rw [bias1]
  exact shapeCast_a_1a_apply _ shapeCasts_S1000_S1x1000 0 n

/-! ## Layer 2 -/

/-- The second transposed sign matrix: the weights compared with zero, ±1 selected, narrowed, transposed. -/
theorem signs2 (c : Dev nD) : (V m c main_v10 : S1000x500.Idx → EReal)
    = transpose S1000x500 [1, 0] (truncf .bf16 (select (cmpf .oge (m ((c : Thread nD τ).loc main_arg3))
        (broadcastInDim S500x1000 ![] bcast_S_S500x1000 (constant (F := Ideal) S_ .f32 0x00000000#32)))
        (broadcastInDim S500x1000 ![] bcast_S_S500x1000 (constant (F := Ideal) S_ .f32 0x3F800000#32))
        (broadcastInDim S500x1000 ![] bcast_S_S500x1000 (constant (F := Ideal) S_ .f32 0xBF800000#32))) bitsLt_bf16_f32)
        transposes_S500x1000_S1000x500_1_0 := by
  dsimp only [Gen.V]
  simp only [hostOps0, hostOps0_1, hostOps0_2, hostOps0_3, hostOps0_4, hostOps0_5, hostOps0_6, List.flatten_cons, List.flatten_nil, List.append_nil,
    List.cons_append, List.nil_append]
  after_results
  rfl

/-- Its entry `(k, n)` is the sign of weight `(n, k)`. -/
theorem signs2_apply (c : Dev nD) (k : Fin 1000) (n : Fin 500) :
    (V m c main_v10 : S1000x500.Idx → EReal) (ix2 k n) = signsT (m ((c : Thread nD τ).loc main_arg3) : S500x1000.Idx → EReal) k n := by
  rw [signs2, transpose_ix2_apply]
  rfl

/-- The second bias as one row. -/
theorem bias2 (c : Dev nD) : (V m c main_v17 : S1x500.Idx → EReal)
    = shapeCast S1x500 (m ((c : Thread nD τ).loc main_arg4)) shapeCasts_S500_S1x500 := by
  dsimp only [Gen.V]
  simp only [hostOps0, hostOps0_1, hostOps0_2, hostOps0_3, hostOps0_4, hostOps0_5, hostOps0_6, List.flatten_cons, List.flatten_nil, List.append_nil,
    List.cons_append, List.nil_append]
  after_results
  rfl

/-- Its entry `(0, n)` is bias `n`. -/
theorem bias2_apply (c : Dev nD) (n : Fin 500) :
    (V m c main_v17 : S1x500.Idx → EReal) (ix2 (0 : Fin 1) n) = bias (m ((c : Thread nD τ).loc main_arg4) : S500.Idx → EReal) n := by
  rw [bias2]
  exact shapeCast_a_1a_apply _ shapeCasts_S500_S1x500 0 n

/-! ## Layer 3 -/

/-- The third transposed sign matrix: the weights compared with zero, ±1 selected, narrowed, transposed. -/
theorem signs3 (c : Dev nD) : (V m c main_v15 : S500x10.Idx → EReal)
    = transpose S500x10 [1, 0] (truncf .bf16 (select (cmpf .oge (m ((c : Thread nD τ).loc main_arg5))
        (broadcastInDim S10x500 ![] bcast_S_S10x500 (constant (F := Ideal) S_ .f32 0x00000000#32)))
        (broadcastInDim S10x500 ![] bcast_S_S10x500 (constant (F := Ideal) S_ .f32 0x3F800000#32))
        (broadcastInDim S10x500 ![] bcast_S_S10x500 (constant (F := Ideal) S_ .f32 0xBF800000#32))) bitsLt_bf16_f32)
        transposes_S10x500_S500x10_1_0 := by
  dsimp only [Gen.V]
  simp only [hostOps0, hostOps0_1, hostOps0_2, hostOps0_3, hostOps0_4, hostOps0_5, hostOps0_6, List.flatten_cons, List.flatten_nil, List.append_nil,
    List.cons_append, List.nil_append]
  after_results
  rfl

/-- Its entry `(k, n)` is the sign of weight `(n, k)`. -/
theorem signs3_apply (c : Dev nD) (k : Fin 500) (n : Fin 10) :
    (V m c main_v15 : S500x10.Idx → EReal) (ix2 k n) = signsT (m ((c : Thread nD τ).loc main_arg5) : S10x500.Idx → EReal) k n := by
  rw [signs3, transpose_ix2_apply]
  rfl

/-- The third bias as one row. -/
theorem bias3 (c : Dev nD) : (V m c main_v18 : S1x10.Idx → EReal)
    = shapeCast S1x10 (m ((c : Thread nD τ).loc main_arg6)) shapeCasts_S10_S1x10 := by
  dsimp only [Gen.V]
  simp only [hostOps0, hostOps0_1, hostOps0_2, hostOps0_3, hostOps0_4, hostOps0_5, hostOps0_6, List.flatten_cons, List.flatten_nil, List.append_nil,
    List.cons_append, List.nil_append]
  after_results
  rfl

/-- Its entry `(0, n)` is bias `n`. -/
theorem bias3_apply (c : Dev nD) (n : Fin 10) :
    (V m c main_v18 : S1x10.Idx → EReal) (ix2 (0 : Fin 1) n) = bias (m ((c : Thread nD τ).loc main_arg6) : S10.Idx → EReal) n := by
  rw [bias3]
  exact shapeCast_a_1a_apply _ shapeCasts_S10_S1x10 0 n

end Cert.SignMlp.Entry

end
-- ==== Proof.Tile.lean ====
/-
  One tile of 1024 samples through the network, read at an entry.

  The body multiplies the tile `[1024, 784]` by the first transposed sign matrix `[784, 1000]` starting from
  zero, adds the bias row to every sample, takes the maximum with zero, and does the same with `[1000, 500]`
  and then, without the maximum, with `[500, 10]`.  A product started from zero is, at `(p, n)`, the sum over the
  contracted coordinate `k` of `lhs (p, k) · rhs (k, n)`; the roundings to a narrower format between the layers
  change nothing on the extended reals.  So entry `(p, n)` of what the body stores is `Cert.SignMlp.mlp` on the
  tile's row `p`, with the matrices and bias rows the body was given.
-/
import proofs.«119544_j50087908606462_1_alg».proof.Proof.Gen.KernelIdeal.Skeleton
import proofs.«119544_j50087908606462_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SignMlp.Tile

open Cert.KernelIdeal Cert.KernelIdeal.Gen Idealize.ShloMosaic Idealize.ShloMosaic.ValueIdx Cert.SignMlp
/-! ## The first product -/

theorem lhs1_0 (i : S1024x1000.Idx) (q : dot_S1024x784_S784x1000_S1024x1000_1_0_0_1_n_n.contr.Idx) :
    (dot_S1024x784_S784x1000_S1024x1000_1_0_0_1_n_n.lhsIdx i q 0).val = (i 0).val := by
  unfold DotDims.lhsIdx
  rw [dif_neg (show ¬(0 : Fin S1024x784.rank) ∈ dot_S1024x784_S784x1000_S1024x1000_1_0_0_1_n_n.lhsBatch by decide), dif_pos (show (0 : Fin S1024x784.rank) ∈ dot_S1024x784_S784x1000_S1024x1000_1_0_0_1_n_n.lhsNonContracting by decide)]
  rfl
theorem lhs1_1 (i : S1024x1000.Idx) (q : dot_S1024x784_S784x1000_S1024x1000_1_0_0_1_n_n.contr.Idx) :
    (dot_S1024x784_S784x1000_S1024x1000_1_0_0_1_n_n.lhsIdx i q 1).val = (q ⟨0, by decide⟩).val :=
  dot_S1024x784_S784x1000_S1024x1000_1_0_0_1_n_n.lhsIdx_val_of_single rfl i q
theorem rhs1_0 (i : S1024x1000.Idx) (q : dot_S1024x784_S784x1000_S1024x1000_1_0_0_1_n_n.contr.Idx) :
    (dot_S1024x784_S784x1000_S1024x1000_1_0_0_1_n_n.rhsIdx i q 0).val = (q ⟨0, by decide⟩).val :=
  dot_S1024x784_S784x1000_S1024x1000_1_0_0_1_n_n.rhsIdx_val_of_single rfl i q
theorem rhs1_1 (i : S1024x1000.Idx) (q : dot_S1024x784_S784x1000_S1024x1000_1_0_0_1_n_n.contr.Idx) :
    (dot_S1024x784_S784x1000_S1024x1000_1_0_0_1_n_n.rhsIdx i q 1).val = (i 1).val := by
  unfold DotDims.rhsIdx
  rw [dif_neg (show ¬(1 : Fin S784x1000.rank) ∈ dot_S1024x784_S784x1000_S1024x1000_1_0_0_1_n_n.rhsBatch by decide), dif_pos (show (1 : Fin S784x1000.rank) ∈ dot_S1024x784_S784x1000_S1024x1000_1_0_0_1_n_n.rhsNonContracting by decide)]
  rfl

/-- The first product, started from zero, at `(p, n)`: the sum over `k` of `l (p, k) · w (k, n)`. -/
theorem prod1 (l : FVec Ideal S1024x784 .bf16) (w : FVec Ideal S784x1000 .bf16) (p : Fin 1024) (n : Fin 1000) :
    matmul dot_S1024x784_S784x1000_S1024x1000_1_0_0_1_n_n none l w (constant S1024x1000 .f32 0x00000000#32) (ix2 p n)
      = ∑ k : Fin 784, l (ix2 p k) * w (ix2 k n) := by
  refine (Ideal.matmul_constant_zero_apply dot_S1024x784_S784x1000_S1024x1000_1_0_0_1_n_n none l w (ix2 p n)).trans ?_
  rw [← Equiv.sum_comp (contrEquiv1 dot_S1024x784_S784x1000_S1024x1000_1_0_0_1_n_n 784 rfl rfl).symm]
  refine Finset.sum_congr rfl fun k _ => ?_
  have hk := contrEquiv1_symm_val dot_S1024x784_S784x1000_S1024x1000_1_0_0_1_n_n 784 rfl rfl k
  have el : dot_S1024x784_S784x1000_S1024x1000_1_0_0_1_n_n.lhsIdx (ix2 p n) ((contrEquiv1 dot_S1024x784_S784x1000_S1024x1000_1_0_0_1_n_n 784 rfl rfl).symm k) = ix2 p k := funext fun a => Fin.ext (by
    match a with
    | ⟨0, _⟩ => exact lhs1_0 _ _
    | ⟨1, _⟩ => exact (lhs1_1 _ _).trans hk)
  have er : dot_S1024x784_S784x1000_S1024x1000_1_0_0_1_n_n.rhsIdx (ix2 p n) ((contrEquiv1 dot_S1024x784_S784x1000_S1024x1000_1_0_0_1_n_n 784 rfl rfl).symm k) = ix2 k n := funext fun a => Fin.ext (by
    match a with
    | ⟨0, _⟩ => exact (rhs1_0 _ _).trans hk
    | ⟨1, _⟩ => exact rhs1_1 _ _)
  rw [el, er]

/-- The first layer on the tile at `(p, n)`: the product, plus the bias row at `n`. -/
theorem affine1 (l : FVec Ideal S1024x784 .bf16) (w : FVec Ideal S784x1000 .bf16) (bv : FVec Ideal S1x1000 .f32)
    (hb : S1x1000.Broadcasts S1024x1000) (p : Fin 1024) (n : Fin 1000) :
    addf (matmul dot_S1024x784_S784x1000_S1024x1000_1_0_0_1_n_n none l w (constant S1024x1000 .f32 0x00000000#32)) (broadcastTo S1024x1000 bv hb) (ix2 p n)
      = layer (fun k n => w (ix2 k n)) (fun n => bv (ix2 (0 : Fin 1) n)) (fun k => l (ix2 p k)) n := by
  show matmul dot_S1024x784_S784x1000_S1024x1000_1_0_0_1_n_n none l w (constant S1024x1000 .f32 0x00000000#32) (ix2 p n) + broadcastTo S1024x1000 bv hb (ix2 p n) = _
  rw [prod1, broadcastTo_1b_ab_apply]
  rfl

/-! ## The second product -/

theorem lhs2_0 (i : S1024x500.Idx) (q : dot_S1024x1000_S1000x500_S1024x500_1_0_0_1_n_n.contr.Idx) :
    (dot_S1024x1000_S1000x500_S1024x500_1_0_0_1_n_n.lhsIdx i q 0).val = (i 0).val := by
  unfold DotDims.lhsIdx
  rw [dif_neg (show ¬(0 : Fin S1024x1000.rank) ∈ dot_S1024x1000_S1000x500_S1024x500_1_0_0_1_n_n.lhsBatch by decide), dif_pos (show (0 : Fin S1024x1000.rank) ∈ dot_S1024x1000_S1000x500_S1024x500_1_0_0_1_n_n.lhsNonContracting by decide)]
  rfl
theorem lhs2_1 (i : S1024x500.Idx) (q : dot_S1024x1000_S1000x500_S1024x500_1_0_0_1_n_n.contr.Idx) :
    (dot_S1024x1000_S1000x500_S1024x500_1_0_0_1_n_n.lhsIdx i q 1).val = (q ⟨0, by decide⟩).val :=
  dot_S1024x1000_S1000x500_S1024x500_1_0_0_1_n_n.lhsIdx_val_of_single rfl i q
theorem rhs2_0 (i : S1024x500.Idx) (q : dot_S1024x1000_S1000x500_S1024x500_1_0_0_1_n_n.contr.Idx) :
    (dot_S1024x1000_S1000x500_S1024x500_1_0_0_1_n_n.rhsIdx i q 0).val = (q ⟨0, by decide⟩).val :=
  dot_S1024x1000_S1000x500_S1024x500_1_0_0_1_n_n.rhsIdx_val_of_single rfl i q
theorem rhs2_1 (i : S1024x500.Idx) (q : dot_S1024x1000_S1000x500_S1024x500_1_0_0_1_n_n.contr.Idx) :
    (dot_S1024x1000_S1000x500_S1024x500_1_0_0_1_n_n.rhsIdx i q 1).val = (i 1).val := by
  unfold DotDims.rhsIdx
  rw [dif_neg (show ¬(1 : Fin S1000x500.rank) ∈ dot_S1024x1000_S1000x500_S1024x500_1_0_0_1_n_n.rhsBatch by decide), dif_pos (show (1 : Fin S1000x500.rank) ∈ dot_S1024x1000_S1000x500_S1024x500_1_0_0_1_n_n.rhsNonContracting by decide)]
  rfl

/-- The second product, started from zero, at `(p, n)`: the sum over `k` of `l (p, k) · w (k, n)`. -/
theorem prod2 (l : FVec Ideal S1024x1000 .bf16) (w : FVec Ideal S1000x500 .bf16) (p : Fin 1024) (n : Fin 500) :
    matmul dot_S1024x1000_S1000x500_S1024x500_1_0_0_1_n_n none l w (constant S1024x500 .f32 0x00000000#32) (ix2 p n)
      = ∑ k : Fin 1000, l (ix2 p k) * w (ix2 k n) := by
  refine (Ideal.matmul_constant_zero_apply dot_S1024x1000_S1000x500_S1024x500_1_0_0_1_n_n none l w (ix2 p n)).trans ?_
  rw [← Equiv.sum_comp (contrEquiv1 dot_S1024x1000_S1000x500_S1024x500_1_0_0_1_n_n 1000 rfl rfl).symm]
  refine Finset.sum_congr rfl fun k _ => ?_
  have hk := contrEquiv1_symm_val dot_S1024x1000_S1000x500_S1024x500_1_0_0_1_n_n 1000 rfl rfl k
  have el : dot_S1024x1000_S1000x500_S1024x500_1_0_0_1_n_n.lhsIdx (ix2 p n) ((contrEquiv1 dot_S1024x1000_S1000x500_S1024x500_1_0_0_1_n_n 1000 rfl rfl).symm k) = ix2 p k := funext fun a => Fin.ext (by
    match a with
    | ⟨0, _⟩ => exact lhs2_0 _ _
    | ⟨1, _⟩ => exact (lhs2_1 _ _).trans hk)
  have er : dot_S1024x1000_S1000x500_S1024x500_1_0_0_1_n_n.rhsIdx (ix2 p n) ((contrEquiv1 dot_S1024x1000_S1000x500_S1024x500_1_0_0_1_n_n 1000 rfl rfl).symm k) = ix2 k n := funext fun a => Fin.ext (by
    match a with
    | ⟨0, _⟩ => exact (rhs2_0 _ _).trans hk
    | ⟨1, _⟩ => exact rhs2_1 _ _)
  rw [el, er]

/-- The second layer on the tile at `(p, n)`: the product, plus the bias row at `n`. -/
theorem affine2 (l : FVec Ideal S1024x1000 .bf16) (w : FVec Ideal S1000x500 .bf16) (bv : FVec Ideal S1x500 .f32)
    (hb : S1x500.Broadcasts S1024x500) (p : Fin 1024) (n : Fin 500) :
    addf (matmul dot_S1024x1000_S1000x500_S1024x500_1_0_0_1_n_n none l w (constant S1024x500 .f32 0x00000000#32)) (broadcastTo S1024x500 bv hb) (ix2 p n)
      = layer (fun k n => w (ix2 k n)) (fun n => bv (ix2 (0 : Fin 1) n)) (fun k => l (ix2 p k)) n := by
  show matmul dot_S1024x1000_S1000x500_S1024x500_1_0_0_1_n_n none l w (constant S1024x500 .f32 0x00000000#32) (ix2 p n) + broadcastTo S1024x500 bv hb (ix2 p n) = _
  rw [prod2, broadcastTo_1b_ab_apply]
  rfl

/-! ## The third product -/

theorem lhs3_0 (i : S1024x10.Idx) (q : dot_S1024x500_S500x10_S1024x10_1_0_0_1_n_n.contr.Idx) :
    (dot_S1024x500_S500x10_S1024x10_1_0_0_1_n_n.lhsIdx i q 0).val = (i 0).val := by
  unfold DotDims.lhsIdx
  rw [dif_neg (show ¬(0 : Fin S1024x500.rank) ∈ dot_S1024x500_S500x10_S1024x10_1_0_0_1_n_n.lhsBatch by decide), dif_pos (show (0 : Fin S1024x500.rank) ∈ dot_S1024x500_S500x10_S1024x10_1_0_0_1_n_n.lhsNonContracting by decide)]
  rfl
theorem lhs3_1 (i : S1024x10.Idx) (q : dot_S1024x500_S500x10_S1024x10_1_0_0_1_n_n.contr.Idx) :
    (dot_S1024x500_S500x10_S1024x10_1_0_0_1_n_n.lhsIdx i q 1).val = (q ⟨0, by decide⟩).val :=
  dot_S1024x500_S500x10_S1024x10_1_0_0_1_n_n.lhsIdx_val_of_single rfl i q
theorem rhs3_0 (i : S1024x10.Idx) (q : dot_S1024x500_S500x10_S1024x10_1_0_0_1_n_n.contr.Idx) :
    (dot_S1024x500_S500x10_S1024x10_1_0_0_1_n_n.rhsIdx i q 0).val = (q ⟨0, by decide⟩).val :=
  dot_S1024x500_S500x10_S1024x10_1_0_0_1_n_n.rhsIdx_val_of_single rfl i q
theorem rhs3_1 (i : S1024x10.Idx) (q : dot_S1024x500_S500x10_S1024x10_1_0_0_1_n_n.contr.Idx) :
    (dot_S1024x500_S500x10_S1024x10_1_0_0_1_n_n.rhsIdx i q 1).val = (i 1).val := by
  unfold DotDims.rhsIdx
  rw [dif_neg (show ¬(1 : Fin S500x10.rank) ∈ dot_S1024x500_S500x10_S1024x10_1_0_0_1_n_n.rhsBatch by decide), dif_pos (show (1 : Fin S500x10.rank) ∈ dot_S1024x500_S500x10_S1024x10_1_0_0_1_n_n.rhsNonContracting by decide)]
  rfl

/-- The third product, started from zero, at `(p, n)`: the sum over `k` of `l (p, k) · w (k, n)`. -/
theorem prod3 (l : FVec Ideal S1024x500 .bf16) (w : FVec Ideal S500x10 .bf16) (p : Fin 1024) (n : Fin 10) :
    matmul dot_S1024x500_S500x10_S1024x10_1_0_0_1_n_n none l w (constant S1024x10 .f32 0x00000000#32) (ix2 p n)
      = ∑ k : Fin 500, l (ix2 p k) * w (ix2 k n) := by
  refine (Ideal.matmul_constant_zero_apply dot_S1024x500_S500x10_S1024x10_1_0_0_1_n_n none l w (ix2 p n)).trans ?_
  rw [← Equiv.sum_comp (contrEquiv1 dot_S1024x500_S500x10_S1024x10_1_0_0_1_n_n 500 rfl rfl).symm]
  refine Finset.sum_congr rfl fun k _ => ?_
  have hk := contrEquiv1_symm_val dot_S1024x500_S500x10_S1024x10_1_0_0_1_n_n 500 rfl rfl k
  have el : dot_S1024x500_S500x10_S1024x10_1_0_0_1_n_n.lhsIdx (ix2 p n) ((contrEquiv1 dot_S1024x500_S500x10_S1024x10_1_0_0_1_n_n 500 rfl rfl).symm k) = ix2 p k := funext fun a => Fin.ext (by
    match a with
    | ⟨0, _⟩ => exact lhs3_0 _ _
    | ⟨1, _⟩ => exact (lhs3_1 _ _).trans hk)
  have er : dot_S1024x500_S500x10_S1024x10_1_0_0_1_n_n.rhsIdx (ix2 p n) ((contrEquiv1 dot_S1024x500_S500x10_S1024x10_1_0_0_1_n_n 500 rfl rfl).symm k) = ix2 k n := funext fun a => Fin.ext (by
    match a with
    | ⟨0, _⟩ => exact (rhs3_0 _ _).trans hk
    | ⟨1, _⟩ => exact rhs3_1 _ _)
  rw [el, er]

/-- The third layer on the tile at `(p, n)`: the product, plus the bias row at `n`. -/
theorem affine3 (l : FVec Ideal S1024x500 .bf16) (w : FVec Ideal S500x10 .bf16) (bv : FVec Ideal S1x10 .f32)
    (hb : S1x10.Broadcasts S1024x10) (p : Fin 1024) (n : Fin 10) :
    addf (matmul dot_S1024x500_S500x10_S1024x10_1_0_0_1_n_n none l w (constant S1024x10 .f32 0x00000000#32)) (broadcastTo S1024x10 bv hb) (ix2 p n)
      = layer (fun k n => w (ix2 k n)) (fun n => bv (ix2 (0 : Fin 1) n)) (fun k => l (ix2 p k)) n := by
  show matmul dot_S1024x500_S500x10_S1024x10_1_0_0_1_n_n none l w (constant S1024x10 .f32 0x00000000#32) (ix2 p n) + broadcastTo S1024x10 bv hb (ix2 p n) = _
  rw [prod3, broadcastTo_1b_ab_apply]
  rfl

/-! ## The whole body -/

/-- ENTRY `(p, n)` OF WHAT THE BODY STORES is the network on row `p` of the tile. -/
theorem stored_apply (v0 : Vec Ideal S1024x784 .f32) (v3 : Vec Ideal S784x1000 .bf16) (v6 : Vec Ideal S1x1000 .f32)
    (v13 : Vec Ideal S1000x500 .bf16) (v16 : Vec Ideal S1x500 .f32) (v23 : Vec Ideal S500x10 .bf16) (v26 : Vec Ideal S1x10 .f32)
    (p : Fin 1024) (n : Fin 10) :
    k0_pay1 v0 v3 v6 v13 v16 v23 v26 (ix2 p n)
      = mlp (fun k n => v3 (ix2 k n)) (fun n => v6 (ix2 (0 : Fin 1) n)) (fun k n => v13 (ix2 k n)) (fun n => v16 (ix2 (0 : Fin 1) n))
          (fun k n => v23 (ix2 k n)) (fun n => v26 (ix2 (0 : Fin 1) n)) (fun k => v0 (ix2 p k)) n := by
  unfold k0_pay1
  simp only [shapeCast_self]
  refine (affine3 _ v23 v26 _ p n).trans ?_
  unfold mlp
  refine congrArg (fun h => layer _ _ h n) (funext fun k3 => ?_)
  show max (addf (matmul dot_S1024x1000_S1000x500_S1024x500_1_0_0_1_n_n none _ v13 (constant S1024x500 .f32 0x00000000#32)) (broadcastTo S1024x500 v16 _) (ix2 p k3)) (Ideal.ofBits .f32 0x00000000#32) = _
  rw [affine2]
  unfold relu
  refine congrArg (fun h => max (layer _ _ h k3) _) (funext fun k2 => ?_)
  show max (addf (matmul dot_S1024x784_S784x1000_S1024x1000_1_0_0_1_n_n none _ v3 (constant S1024x1000 .f32 0x00000000#32)) (broadcastTo S1024x1000 v6 _) (ix2 p k2)) (Ideal.ofBits .f32 0x00000000#32) = _
  rw [affine1]
  rfl

end Cert.SignMlp.Tile

end
-- ==== Proof.KernelValue.lean ====
/-
  The tiled program computes `Cert.SignMlp.G`.

  The batch is cut into 64 tiles of 1024 samples.  At grid point `t` the region reads rows `1024 t … 1024 t + 1023` of
  the flattened images, the three transposed sign matrices and the three bias rows whole, and writes rows
  `1024 t … 1024 t + 1023` of the result.  Row `p` of the tile is sample `1024 t + p`, and what the body stores at
  `(p, n)` is the network on that row (`Cert.SignMlp.Tile.stored_apply`); so point `t` writes back exactly rows
  `1024 t …` of `G`.  Row `r` of the result lies in the tile of point `r / 1024`, so the 64 tiles cover the result
  array, which therefore ends holding `G` of the arguments.
-/
import proofs.«119544_j50087908606462_1_alg».proof.Proof.Gen.KernelIdeal.Value
import proofs.«119544_j50087908606462_1_alg».proof.Proof.Spec
import proofs.«119544_j50087908606462_1_alg».proof.Proof.Entry
import proofs.«119544_j50087908606462_1_alg».proof.Proof.Tile
import Idealize.ShloMosaic.Lib.Pipeline.Value
import Idealize.ShloMosaic.Lib.ValueIdx

noncomputable section

namespace Cert.SignMlp.Tiled

open Cert.KernelIdeal Cert.KernelIdeal.Gen Idealize.ShloMosaic Idealize.ShloMosaic.TcCoe Idealize.SL.Sem
open Idealize.ShloMosaic.Pipeline (Dat)
open Idealize.ShloMosaic.ValueIdx Cert.SignMlp

variable (m : (ℓ : Loc nD τ sig) → Buf (Elt Ideal) ℓ) (ρ : Dev nD → PrngReg)

theorem origin : (![0, 0] : Fin 2 → Nat) = fun _ => 0 := funext fun a => by fin_cases a <;> rfl

/-- WHERE THE BLOCKS SIT, decided over the 64 grid points: the image tile and the result tile of point `t` are row
    block `t`; every other window's one block is its whole array. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The network does not change when its matrices, biases and sample are replaced by equal ones. -/
theorem mlp_congr {S1 S1' : Fin 784 → Fin 1000 → EReal} {b1 b1' : Fin 1000 → EReal} {S2 S2' : Fin 1000 → Fin 500 → EReal}
    {b2 b2' : Fin 500 → EReal} {S3 S3' : Fin 500 → Fin 10 → EReal} {b3 b3' : Fin 10 → EReal} {x x' : Fin 784 → EReal}
    (h1 : S1 = S1') (hb1 : b1 = b1') (h2 : S2 = S2') (hb2 : b2 = b2') (h3 : S3 = S3') (hb3 : b3 = b3') (hx : x = x') :
    mlp S1 b1 S2 b2 S3 b3 x = mlp S1' b1' S2' b2' S3' b3' x' := by
  subst h1 hb1 h2 hb2 h3 hb3 hx
  rfl

/-! ## The blocks the body is given -/

/-- Row `p` of the image tile at point `t` is sample `r = 1024 t + p`. -/
theorem tile_images (c : Dev nD) (t : Fin cfg0.N) (p : Fin 1024) (k : Fin 784) (r : Fin 65536) (hr : r.val = t.val * 1024 + p.val) :
    (iblk m c 0 t : Vec Ideal S1024x784 .f32) (ix2 p k)
      = (m ((c : Thread nD τ).loc main_arg0) : S65536x28x28.Idx → EReal) (pixel r k) := by
  obtain ⟨e0, e1, -, -, -, -, -, -, -, -, -, -, -, -, -, -⟩ := block_index t
  have he : ((cfg0.win 0).blk t).view.emb (ix2 p k) = ix2 r k := by
    funext a; apply Fin.ext
    match a with
    | ⟨0, _⟩ => show win0_0.index t (0 : Fin 2) * 1024 + 1 * p.val = r.val; omega
    | ⟨1, _⟩ => show win0_0.index t (1 : Fin 2) * 784 + 1 * k.val = k.val; omega
  show V m c main_v0 (((cfg0.win 0).blk t).view.emb (ix2 p k)) = _
  rw [he]
  exact Entry.images_apply m c r k

/-- The first transposed sign matrix is given whole at every point. -/
theorem tile_signs1 (c : Dev nD) (t : Fin cfg0.N) (k : Fin 784) (n : Fin 1000) :
    (iblk m c 1 t : Vec Ideal S784x1000 .bf16) (ix2 k n)
      = signsT (m ((c : Thread nD τ).loc main_arg1) : S1000x784.Idx → EReal) k n := by
  obtain ⟨-, -, e0, e1, -, -, -, -, -, -, -, -, -, -, -, -⟩ := block_index t
  have he : ((cfg0.win 1).blk t).view.emb (ix2 k n) = ix2 k n := by
    funext a; apply Fin.ext
    match a with
    | ⟨0, _⟩ => show win0_1.index t (0 : Fin 2) * 784 + 1 * k.val = k.val; omega
    | ⟨1, _⟩ => show win0_1.index t (1 : Fin 2) * 1000 + 1 * n.val = n.val; omega
  show V m c main_v5 (((cfg0.win 1).blk t).view.emb (ix2 k n)) = _
  rw [he]
  exact Entry.signs1_apply m c k n

/-- The first bias row is given whole at every point. -/
theorem tile_bias1 (c : Dev nD) (t : Fin cfg0.N) (n : Fin 1000) :
    (iblk m c 2 t : Vec Ideal S1x1000 .f32) (ix2 (0 : Fin 1) n)
      = bias (m ((c : Thread nD τ).loc main_arg2) : S1000.Idx → EReal) n := by
  obtain ⟨-, -, -, -, e0, e1, -, -, -, -, -, -, -, -, -, -⟩ := block_index t
  have he : ((cfg0.win 2).blk t).view.emb (ix2 (0 : Fin 1) n) = ix2 (0 : Fin 1) n := by
    funext a; apply Fin.ext
    match a with
    | ⟨0, _⟩ => show win0_2.index t (0 : Fin 2) * 1 + 1 * 0 = 0; omega
    | ⟨1, _⟩ => show win0_2.index t (1 : Fin 2) * 1000 + 1 * n.val = n.val; omega
  show V m c main_v16 (((cfg0.win 2).blk t).view.emb (ix2 (0 : Fin 1) n)) = _
  rw [he]
  exact Entry.bias1_apply m c n

/-- The second transposed sign matrix is given whole at every point. -/
theorem tile_signs2 (c : Dev nD) (t : Fin cfg0.N) (k : Fin 1000) (n : Fin 500) :
    (iblk m c 3 t : Vec Ideal S1000x500 .bf16) (ix2 k n)
      = signsT (m ((c : Thread nD τ).loc main_arg3) : S500x1000.Idx → EReal) k n := by
  obtain ⟨-, -, -, -, -, -, e0, e1, -, -, -, -, -, -, -, -⟩ := block_index t
  have he : ((cfg0.win 3).blk t).view.emb (ix2 k n) = ix2 k n := by
    funext a; apply Fin.ext
    match a with
    | ⟨0, _⟩ => show win0_3.index t (0 : Fin 2) * 1000 + 1 * k.val = k.val; omega
    | ⟨1, _⟩ => show win0_3.index t (1 : Fin 2) * 500 + 1 * n.val = n.val; omega
  show V m c main_v10 (((cfg0.win 3).blk t).view.emb (ix2 k n)) = _
  rw [he]
  exact Entry.signs2_apply m c k n

/-- The second bias row is given whole at every point. -/
theorem tile_bias2 (c : Dev nD) (t : Fin cfg0.N) (n : Fin 500) :
    (iblk m c 4 t : Vec Ideal S1x500 .f32) (ix2 (0 : Fin 1) n)
      = bias (m ((c : Thread nD τ).loc main_arg4) : S500.Idx → EReal) n := by
  obtain ⟨-, -, -, -, -, -, -, -, e0, e1, -, -, -, -, -, -⟩ := block_index t
  have he : ((cfg0.win 4).blk t).view.emb (ix2 (0 : Fin 1) n) = ix2 (0 : Fin 1) n := by
    funext a; apply Fin.ext
    match a with
    | ⟨0, _⟩ => show win0_4.index t (0 : Fin 2) * 1 + 1 * 0 = 0; omega
    | ⟨1, _⟩ => show win0_4.index t (1 : Fin 2) * 500 + 1 * n.val = n.val; omega
  show V m c main_v17 (((cfg0.win 4).blk t).view.emb (ix2 (0 : Fin 1) n)) = _
  rw [he]
  exact Entry.bias2_apply m c n

/-- The third transposed sign matrix is given whole at every point. -/
theorem tile_signs3 (c : Dev nD) (t : Fin cfg0.N) (k : Fin 500) (n : Fin 10) :
    (iblk m c 5 t : Vec Ideal S500x10 .bf16) (ix2 k n)
      = signsT (m ((c : Thread nD τ).loc main_arg5) : S10x500.Idx → EReal) k n := by
  obtain ⟨-, -, -, -, -, -, -, -, -, -, e0, e1, -, -, -, -⟩ := block_index t
  have he : ((cfg0.win 5).blk t).view.emb (ix2 k n) = ix2 k n := by
    funext a; apply Fin.ext
    match a with
    | ⟨0, _⟩ => show win0_5.index t (0 : Fin 2) * 500 + 1 * k.val = k.val; omega
    | ⟨1, _⟩ => show win0_5.index t (1 : Fin 2) * 10 + 1 * n.val = n.val; omega
  show V m c main_v15 (((cfg0.win 5).blk t).view.emb (ix2 k n)) = _
  rw [he]
  exact Entry.signs3_apply m c k n

/-- The third bias row is given whole at every point. -/
theorem tile_bias3 (c : Dev nD) (t : Fin cfg0.N) (n : Fin 10) :
    (iblk m c 6 t : Vec Ideal S1x10 .f32) (ix2 (0 : Fin 1) n)
      = bias (m ((c : Thread nD τ).loc main_arg6) : S10.Idx → EReal) n := by
  obtain ⟨-, -, -, -, -, -, -, -, -, -, -, -, e0, e1, -, -⟩ := block_index t
  have he : ((cfg0.win 6).blk t).view.emb (ix2 (0 : Fin 1) n) = ix2 (0 : Fin 1) n := by
    funext a; apply Fin.ext
    match a with
    | ⟨0, _⟩ => show win0_6.index t (0 : Fin 2) * 1 + 1 * 0 = 0; omega
    | ⟨1, _⟩ => show win0_6.index t (1 : Fin 2) * 10 + 1 * n.val = n.val; omega
  show V m c main_v18 (((cfg0.win 6).blk t).view.emb (ix2 (0 : Fin 1) n)) = _
  rw [he]
  exact Entry.bias3_apply m c n

/-! ## What a point writes back -/

/-- POINT `t` WRITES BACK rows `1024 t … 1024 t + 1023` of `G` of the arguments. -/
theorem flushed_eq (c : Dev nD) (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have ht : t.val < 64 := Nat.lt_of_lt_of_eq t.isLt N_0
  obtain ⟨-, -, -, -, -, -, -, -, -, -, -, -, -, -, e0, e1⟩ := block_index t
  rw [Value.flushed7]
  unfold out0_7
  rw [View.canon_unit_zero origin]
  simp only [View.ld_unit_zero (S := S1024x784) origin, View.ld_unit_zero (S := S784x1000) origin, View.ld_unit_zero (S := S1x1000) origin,
    View.ld_unit_zero (S := S1000x500) origin, View.ld_unit_zero (S := S1x500) origin, View.ld_unit_zero (S := S500x10) origin,
    View.ld_unit_zero (S := S1x10) origin]
  funext y
  obtain ⟨p, n, rfl⟩ : ∃ (p : Fin 1024) (n : Fin 10), y = ix2 p n := ⟨y 0, y 1, eq_ix2 y⟩
  have hp := p.isLt
  obtain ⟨r, hr⟩ : ∃ r : Fin 65536, r.val = t.val * 1024 + p.val := ⟨⟨t.val * 1024 + p.val, by omega⟩, rfl⟩
  have he : ((cfg0.win 7).blk t).view.emb (ix2 p n) = ix2 r n := by
    funext a; apply Fin.ext
    match a with
    | ⟨0, _⟩ => show win0_7.index t (0 : Fin 2) * 1024 + 1 * p.val = r.val; omega
    | ⟨1, _⟩ => show win0_7.index t (1 : Fin 2) * 10 + 1 * n.val = n.val; omega
  show k0_pay1 (iblk m c 0 t) (iblk m c 1 t) (iblk m c 2 t) (iblk m c 3 t) (iblk m c 4 t) (iblk m c 5 t) (iblk m c 6 t) (ix2 p n)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p n))
  rw [he, G_ix2]
  refine (Tile.stored_apply (iblk m c 0 t) (iblk m c 1 t) (iblk m c 2 t) (iblk m c 3 t) (iblk m c 4 t) (iblk m c 5 t) (iblk m c 6 t) p n).trans ?_
  unfold sample
  exact congrFun (mlp_congr
    (funext fun k => funext fun n => tile_signs1 m c t k n) (funext fun n => tile_bias1 m c t n)
    (funext fun k => funext fun n => tile_signs2 m c t k n) (funext fun n => tile_bias2 m c t n)
    (funext fun k => funext fun n => tile_signs3 m c t k n) (funext fun n => tile_bias3 m c t n)
    (funext fun k => tile_images m c t p k r hr)) n

/-! ## The tiles cover the result -/

/-- An entry of the result is in point `t`'s tile iff each coordinate is in the tile's range on its axis. -/
theorem mem_tile (t : Fin cfg0.N) (i : S65536x10.Idx) :
    i ∈ ((cfg0.win 7).blk t).view.set ↔ ∀ a : Fin 2, win0_7.index t a * S1024x10.size a ≤ (i a).val ∧ (i a).val < win0_7.index t a * S1024x10.size a + S1024x10.size a := by
  show i ∈ ((View.whole main_v19).slice (win0_7.rect t)).set ↔ _
  rw [View.set_slice_whole, Rect.mem_set_unit]
  exact Iff.rfl

/-- Row `r` of the result lies in the tile of point `r / 1024`. -/
theorem cover (i : S65536x10.Idx) : ∃ t : Fin cfg0.N, (cfg0.win 7).flush t = true ∧ i ∈ ((cfg0.win 7).blk t).view.set := by
  have h0 : (i 0).val < 65536 := (i 0).isLt
  have h1 : (i 1).val < 10 := (i 1).isLt
  obtain ⟨t, ht⟩ : ∃ t : Fin cfg0.N, t.val = (i 0).val / 1024 :=
    ⟨⟨(i 0).val / 1024, Nat.lt_of_lt_of_eq (by omega : (i 0).val / 1024 < 64) N_0.symm⟩, rfl⟩
  obtain ⟨-, -, -, -, -, -, -, -, -, -, -, -, -, -, e0, e1⟩ := block_index t
  refine ⟨t, flush0_7 t, ?_⟩
  rw [mem_tile]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 10 ≤ (i 1).val ∧ (i 1).val < win0_7.index t (1 : Fin 2) * 10 + 10; omega

/-- THE RESULT ARRAY after the run is `G` of the arguments. -/
theorem final (c : Dev nD) : (dats m 0 c).arrAt 7 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (fun t _ => flushed_eq m c t) cover

/-! ## The run -/

/-- Every weakly fair execution of the tiled program ends with the result array at `G` of the arguments and the
    arguments unchanged. -/
theorem run : θ_run defs (onTc (τ := τ) (main (F := Ideal))) ⟨m, fun _ => 0, ρ⟩ fun r => ∀ c : Dev nD,
      r.2.mem ((c : Thread nD τ).loc main_v19) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.SignMlp.Tiled

end
-- ==== Proof.lean ====
/-
  A three-layer network with sign weights, tiled over the batch, against the same network written as three whole
  matrix products.

  Both programs replace every weight by its sign (+1 where the weight is at least zero, −1 elsewhere), and for each
  sample `x` (an image flattened to 784 pixels) compute
      h₁ = max (x · S₁ + b₁) 0,   h₂ = max (h₁ · S₂ + b₂) 0,   y = h₂ · S₃ + b₃,
  where `Sᵢ` is the transposed sign matrix of layer `i`.  The reference does this for all 65536 samples at once;
  the other program cuts the batch into 64 tiles of 1024 samples and narrows the format of the activations and
  of the sign matrices on the way into each product.  On the extended reals a change of format is the identity
  and a matrix product is the same sum in both programs, so the two results are one function of the arguments,
  `Cert.SignMlp.G` (Proof/Spec.lean): no law of arithmetic beyond `0 + s = s` is used, and the inputs' finiteness
  is not needed.

  Proof/RefValue.lean reads the reference's straight-line program at an entry and finds `G`.
  Proof/Entry.lean reads what the tiled region finds in its seven arrays; Proof/Tile.lean reads what the body
  stores, at an entry, as the network on one row of its tile; Proof/KernelValue.lean puts the 64 tiles together:
  point `t` writes rows `1024 t … 1024 t + 1023` of `G`, and the tiles cover the result.
  The three programs' runs (termination, no fault, arguments unchanged) are the generated frame runs; no
  operation was rewritten on the way to the extended reals, so there is nothing to preserve.
-/
import proofs.«119544_j50087908606462_1_alg».proof.Defs
import proofs.«119544_j50087908606462_1_alg».proof.Proof.Gen.Kernel
import proofs.«119544_j50087908606462_1_alg».proof.Proof.Gen.Kernel.Skeleton
import proofs.«119544_j50087908606462_1_alg».proof.Proof.Gen.Kernel.Launch
import proofs.«119544_j50087908606462_1_alg».proof.Proof.Gen.Kernel.Points
import proofs.«119544_j50087908606462_1_alg».proof.Proof.Gen.Kernel.Frame
import proofs.«119544_j50087908606462_1_alg».proof.Proof.Gen.KernelIdeal
import proofs.«119544_j50087908606462_1_alg».proof.Proof.Gen.KernelIdeal.Skeleton
import proofs.«119544_j50087908606462_1_alg».proof.Proof.Gen.KernelIdeal.Launch
import proofs.«119544_j50087908606462_1_alg».proof.Proof.Gen.KernelIdeal.Points
import proofs.«119544_j50087908606462_1_alg».proof.Proof.Gen.KernelIdeal.Frame
import proofs.«119544_j50087908606462_1_alg».proof.Proof.Gen.ReferenceIdeal
import proofs.«119544_j50087908606462_1_alg».proof.Proof.Gen.KernelIdeal.Value
import proofs.«119544_j50087908606462_1_alg».proof.Proof.Gen.ReferenceIdeal.Run
import proofs.«119544_j50087908606462_1_alg».proof.Proof.Gen.ReferenceIdeal.Read
import proofs.«119544_j50087908606462_1_alg».proof.Proof.Gen.Pre_finite_inputs
import proofs.«119544_j50087908606462_1_alg».proof.Proof.Spec
import proofs.«119544_j50087908606462_1_alg».proof.Proof.RefValue
import proofs.«119544_j50087908606462_1_alg».proof.Proof.KernelValue
import Idealize.ShloMosaic.Adequacy
import Idealize.ShloMosaic.Init

noncomputable section

namespace Cert.Proof

open Idealize.ShloMosaic Idealize.ShloMosaic.TcCoe Idealize.SL.Sem

/-- The tiled program as printed runs to the end and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: the reading on the extended reals is the program's own text. -/
theorem preserves : Cert.preserves_Kernel_KernelIdeal := trivial

/-- From memories that agree on the seven arguments both programs end with the result array at `G` of the
    arguments: the tiled one by `Cert.SignMlp.Tiled.run`, the reference by its run and `Cert.SignMlp.Ref.result_eq`. -/
theorem algebraic : Cert.algebraic_KernelIdeal_ReferenceIdeal := by
  intro m ρ m' ρ' _ hagree
  refine ⟨fun c => Cert.SignMlp.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.SignMlp.Tiled.run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5, a6⟩ := hagree c
  rw [(h c).1, Cert.ReferenceIdeal.Read.val_main_v31_eq, Cert.SignMlp.Ref.result_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
